-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel

variable [Facts]

def fn {F : FTy → Type} [FloatOps F] (main_arg0 : FVec F S4x256x64x64 .f32) (main_arg1 : FVec F S4x256x64x64 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x256x64x64 .f32 := Host.absf main_arg1
  let main_cst_0 : FVec F S_ .f32 := constant S_ .f32 0x7F800000#32
  let main_v5 : FVec F S4x256x64x64 .f32 := broadcastInDim S4x256x64x64 ![] bcast_S_S4x256x64x64 main_cst_0
  let main_v6 : IVec S4x256x64x64 1 := cmpf .olt main_v4 main_v5
  let main_c_1 : IVec S_ 1 := constantI S_ 1 1#1
  let main_v7 : IVec S_ 1 := (fun x v => Host.reduce IntOp.andi x v reducesTo_S4x256x64x64_S_d0_1_2_3 h_S_) main_v6 main_c_1
  let main_v8 : IVec S_ 1 := andi main_v3 main_v7
  main_v8
-- ==== Kernel.lean ====
abbrev S4x256x64x64 : Shape := ⟨4, ![4, 256, 64, 64]⟩
abbrev S4x256x4096 : Shape := ⟨3, ![4, 256, 4096]⟩
abbrev S_ : Shape := ⟨0, ![]⟩
abbrev S4x256 : Shape := ⟨2, ![4, 256]⟩
abbrev S4x256x1x1 : Shape := ⟨4, ![4, 256, 1, 1]⟩
abbrev S4x64x64 : Shape := ⟨3, ![4, 64, 64]⟩
abbrev S4x1x64x64 : Shape := ⟨4, ![4, 1, 64, 64]⟩
abbrev S4x4096x256 : Shape := ⟨3, ![4, 4096, 256]⟩
abbrev S4x4096x1 : Shape := ⟨3, ![4, 4096, 1]⟩
abbrev S1x256x256 : Shape := ⟨3, ![1, 256, 256]⟩
abbrev S1x256x4096 : Shape := ⟨3, ![1, 256, 4096]⟩
abbrev S1x256x1 : Shape := ⟨3, ![1, 256, 1]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S4x4096 : Shape := ⟨2, ![4, 4096]⟩
abbrev S4 : Shape := ⟨1, ![4]⟩

abbrev nBuf : Space → Nat
  | .hbm => 45
  | .vmem => 6
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S4x256x4096, .f32⟩
  | .hbm, ⟨3, _⟩ => ⟨S_, .f32⟩
  | .hbm, ⟨4, _⟩ => ⟨S4x256, .f32⟩
  | .hbm, ⟨5, _⟩ => ⟨S_, .f32⟩
  | .hbm, ⟨6, _⟩ => ⟨S4x256, .f32⟩
  | .hbm, ⟨7, _⟩ => ⟨S4x256, .f32⟩
  | .hbm, ⟨8, _⟩ => ⟨S4x256x1x1, .f32⟩
  | .hbm, ⟨9, _⟩ => ⟨S4x256x64x64, .f32⟩
  | .hbm, ⟨10, _⟩ => ⟨S4x256x64x64, .f32⟩
  | .hbm, ⟨11, _⟩ => ⟨S4x256x64x64, .f32⟩
  | .hbm, ⟨12, _⟩ => ⟨S4x256x64x64, .f32⟩
  | .hbm, ⟨13, _⟩ => ⟨S4x256x64x64, .f32⟩
  | .hbm, ⟨14, _⟩ => ⟨S_, .f32⟩
  | .hbm, ⟨15, _⟩ => ⟨S4x64x64, .f32⟩
  | .hbm, ⟨16, _⟩ => ⟨S4x1x64x64, .f32⟩
  | .hbm, ⟨17, _⟩ => ⟨S4x1x64x64, .f32⟩
  | .hbm, ⟨18, _⟩ => ⟨S_, .f32⟩
  | .hbm, ⟨19, _⟩ => ⟨S4x1x64x64, .f32⟩
  | .hbm, ⟨20, _⟩ => ⟨S4x1x64x64, .f32⟩
  | .hbm, ⟨21, _⟩ => ⟨S4x256x64x64, .f32⟩
  | .hbm, ⟨22, _⟩ => ⟨S4x256x64x64, .f32⟩
  | .hbm, ⟨23, _⟩ => ⟨S4x256x64x64, .f32⟩
  | .hbm, ⟨24, _⟩ => ⟨S_, .f32⟩
  | .hbm, ⟨25, _⟩ => ⟨S4x64x64, .f32⟩
  | .hbm, ⟨26, _⟩ => ⟨S4x1x64x64, .f32⟩
  | .hbm, ⟨27, _⟩ => ⟨S4x1x64x64, .f32⟩
  | .hbm, ⟨28, _⟩ => ⟨S_, .f32⟩
  | .hbm, ⟨29, _⟩ => ⟨S4x1x64x64, .f32⟩
  | .hbm, ⟨30, _⟩ => ⟨S4x1x64x64, .f32⟩
  | .hbm, ⟨31, _⟩ => ⟨S4x256x64x64, .f32⟩
  | .hbm, ⟨32, _⟩ => ⟨S4x256x64x64, .f32⟩
  | .hbm, ⟨33, _⟩ => ⟨S4x256x4096, .f32⟩
  | .hbm, ⟨34, _⟩ => ⟨S4x256x4096, .f32⟩
  | .hbm, ⟨35, _⟩ => ⟨S4x4096x256, .f32⟩
  | .hbm, ⟨36, _⟩ => ⟨S4x4096x1, .f32⟩
  | .hbm, ⟨37, _⟩ => ⟨S4x4096, .f32⟩
  | .hbm, ⟨38, _⟩ => ⟨S_, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S4, .f32⟩
  | .local _ .vmem, ⟨0, _⟩ => ⟨S1x256x256, .f32⟩
  | .local _ .vmem, ⟨1, _⟩ => ⟨S1x256x256, .f32⟩
  | .local _ .vmem, ⟨2, _⟩ => ⟨S1x256x4096, .f32⟩
  | .local _ .vmem, ⟨3, _⟩ => ⟨S1x256x4096, .f32⟩
  | .local _ .vmem, ⟨4, _⟩ => ⟨S1x256x1, .f32⟩
  | .local _ .vmem, ⟨5, _⟩ => ⟨S1x256x1, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x256x64x64_S4x256x4096 : S4x256x64x64.ShapeCasts S4x256x4096
  reducesTo_S4x256x4096_S4x256_d2 : S4x256x4096.ReducesTo [2] S4x256
  h_S_ : 0 < S_.numel
  bcast_S_S4x256 : S_.BroadcastsInDim S4x256 (![] : Fin 0 → Fin S4x256.rank)
  bcast_S4x256_S4x256x1x1_0_1 : S4x256.BroadcastsInDim S4x256x1x1 (![0, 1] : Fin 2 → Fin S4x256x1x1.rank)
  bcast_S4x256x1x1_S4x256x64x64_0_1_2_3 : S4x256x1x1.BroadcastsInDim S4x256x64x64 (![0, 1, 2, 3] : Fin 4 → Fin S4x256x64x64.rank)
  reducesTo_S4x256x64x64_S4x64x64_d1 : S4x256x64x64.ReducesTo [1] S4x64x64
  bcast_S4x64x64_S4x1x64x64_0_2_3 : S4x64x64.BroadcastsInDim S4x1x64x64 (![0, 2, 3] : Fin 3 → Fin S4x1x64x64.rank)
  bcast_S_S4x1x64x64 : S_.BroadcastsInDim S4x1x64x64 (![] : Fin 0 → Fin S4x1x64x64.rank)
  bcast_S4x1x64x64_S4x256x64x64_0_1_2_3 : S4x1x64x64.BroadcastsInDim S4x256x64x64 (![0, 1, 2, 3] : Fin 4 → Fin S4x256x64x64.rank)
  transposes_S4x256x4096_S4x4096x256_0_2_1 : S4x256x4096.Transposes [0, 2, 1] S4x4096x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  broadcasts_S256x1_S256x4096 : S256x1.Broadcasts S256x4096
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  shapeCasts_S4x4096x1_S4x4096 : S4x4096x1.ShapeCasts S4x4096
  reducesTo_S4x4096_S4_d1 : S4x4096.ReducesTo [1] S4
  bcast_S_S4 : S_.BroadcastsInDim S4 (![] : Fin 0 → Fin S4.rank)
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S4x4096x256.size a
  hwx0_0 : ∀ i : grid0.Coords, EltTy.bits .f32 = 32 ∨ (Rect.block (s := S4x4096x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S4x256x4096.size a
  hwx0_1 : ∀ i : grid0.Coords, EltTy.bits .f32 = 32 ∨ (Rect.block (s := S4x256x4096) S1x256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S4x4096x1.size a
  hwx0_2 : ∀ i : grid0.Coords, EltTy.bits .f32 = 32 ∨ (Rect.block (s := S4x4096x1) S1x256x1.size (cc0_transform_2 i) (hinb0_2 i)).WholeWords (EltTy.packing .f32)

variable [Facts₀]

def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_v27) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x256x64x64 : Shape := ⟨4, ![4, 256, 64, 64]⟩
abbrev S4x256x4096 : Shape := ⟨3, ![4, 256, 4096]⟩
abbrev S_ : Shape := ⟨0, ![]⟩
abbrev S4x256 : Shape := ⟨2, ![4, 256]⟩
abbrev S4x256x1x1 : Shape := ⟨4, ![4, 256, 1, 1]⟩
abbrev S4x64x64 : Shape := ⟨3, ![4, 64, 64]⟩
abbrev S4x1x64x64 : Shape := ⟨4, ![4, 1, 64, 64]⟩
abbrev S4x4096x4096 : Shape := ⟨3, ![4, 4096, 4096]⟩
abbrev S4x4096 : Shape := ⟨2, ![4, 4096]⟩
abbrev S4x4096x1 : Shape := ⟨3, ![4, 4096, 1]⟩
abbrev S4 : Shape := ⟨1, ![4]⟩

abbrev nBuf : Space → Nat
  | .hbm => 68
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S4x256x4096, .f32⟩
  | .hbm, ⟨3, _⟩ => ⟨S_, .f32⟩
  | .hbm, ⟨4, _⟩ => ⟨S4x256, .f32⟩
  | .hbm, ⟨5, _⟩ => ⟨S_, .f32⟩
  | .hbm, ⟨6, _⟩ => ⟨S4x256, .f32⟩
  | .hbm, ⟨7, _⟩ => ⟨S4x256, .f32⟩
  | .hbm, ⟨8, _⟩ => ⟨S4x256x1x1, .f32⟩
  | .hbm, ⟨9, _⟩ => ⟨S4x256x64x64, .f32⟩
  | .hbm, ⟨10, _⟩ => ⟨S4x256x64x64, .f32⟩
  | .hbm, ⟨11, _⟩ => ⟨S4x256x64x64, .f32⟩
  | .hbm, ⟨12, _⟩ => ⟨S_, .f32⟩
  | .hbm, ⟨13, _⟩ => ⟨S4x64x64, .f32⟩
  | .hbm, ⟨14, _⟩ => ⟨S4x1x64x64, .f32⟩
  | .hbm, ⟨15, _⟩ => ⟨S4x1x64x64, .f32⟩
  | .hbm, ⟨16, _⟩ => ⟨S_, .f32⟩
  | .hbm, ⟨17, _⟩ => ⟨S4x1x64x64, .f32⟩
  | .hbm, ⟨18, _⟩ => ⟨S4x1x64x64, .f32⟩
  | .hbm, ⟨19, _⟩ => ⟨S4x256x64x64, .f32⟩
  | .hbm, ⟨20, _⟩ => ⟨S4x256x64x64, .f32⟩
  | .hbm, ⟨21, _⟩ => ⟨S4x256x64x64, .f32⟩
  | .hbm, ⟨22, _⟩ => ⟨S4x256x64x64, .f32⟩
  | .hbm, ⟨23, _⟩ => ⟨S4x256x64x64, .f32⟩
  | .hbm, ⟨24, _⟩ => ⟨S_, .f32⟩
  | .hbm, ⟨25, _⟩ => ⟨S4x64x64, .f32⟩
  | .hbm, ⟨26, _⟩ => ⟨S4x1x64x64, .f32⟩
  | .hbm, ⟨27, _⟩ => ⟨S4x1x64x64, .f32⟩
  | .hbm, ⟨28, _⟩ => ⟨S_, .f32⟩
  | .hbm, ⟨29, _⟩ => ⟨S4x1x64x64, .f32⟩
  | .hbm, ⟨30, _⟩ => ⟨S4x1x64x64, .f32⟩
  | .hbm, ⟨31, _⟩ => ⟨S4x256x64x64, .f32⟩
  | .hbm, ⟨32, _⟩ => ⟨S4x256x64x64, .f32⟩
  | .hbm, ⟨33, _⟩ => ⟨S4x256x4096, .f32⟩
  | .hbm, ⟨34, _⟩ => ⟨S4x256x4096, .f32⟩
  | .hbm, ⟨35, _⟩ => ⟨S4x4096x4096, .f32⟩
  | .hbm, ⟨36, _⟩ => ⟨S_, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S_, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096x4096, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S4x4096x4096, .f32⟩
  | .hbm, ⟨58, _⟩ => ⟨S4x4096x4096, .f32⟩
  | .hbm, ⟨59, _⟩ => ⟨S_, .f32⟩
  | .hbm, ⟨60, _⟩ => ⟨S4x4096, .f32⟩
  | .hbm, ⟨61, _⟩ => ⟨S_, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_11 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_cst_13 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]

class Facts₀ : Prop where
  shapeCasts_S4x256x64x64_S4x256x4096 : S4x256x64x64.ShapeCasts S4x256x4096
  reducesTo_S4x256x4096_S4x256_d2 : S4x256x4096.ReducesTo [2] S4x256
  h_S_ : 0 < S_.numel
  bcast_S_S4x256 : S_.BroadcastsInDim S4x256 (![] : Fin 0 → Fin S4x256.rank)
  bcast_S4x256_S4x256x1x1_0_1 : S4x256.BroadcastsInDim S4x256x1x1 (![0, 1] : Fin 2 → Fin S4x256x1x1.rank)
  bcast_S4x256x1x1_S4x256x64x64_0_1_2_3 : S4x256x1x1.BroadcastsInDim S4x256x64x64 (![0, 1, 2, 3] : Fin 4 → Fin S4x256x64x64.rank)
  reducesTo_S4x256x64x64_S4x64x64_d1 : S4x256x64x64.ReducesTo [1] S4x64x64
  bcast_S4x64x64_S4x1x64x64_0_2_3 : S4x64x64.BroadcastsInDim S4x1x64x64 (![0, 2, 3] : Fin 3 → Fin S4x1x64x64.rank)
  bcast_S_S4x1x64x64 : S_.BroadcastsInDim S4x1x64x64 (![] : Fin 0 → Fin S4x1x64x64.rank)
  bcast_S4x1x64x64_S4x256x64x64_0_1_2_3 : S4x1x64x64.BroadcastsInDim S4x256x64x64 (![0, 1, 2, 3] : Fin 4 → Fin S4x256x64x64.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  reducesTo_S4x4096_S4_d1 : S4x4096.ReducesTo [1] S4
  bcast_S_S4 : S_.BroadcastsInDim S4 (![] : Fin 0 → Fin S4.rank)
  dot_S4x256x4096_S4x256x4096_S4x4096x4096_1_1_2_2_0_0_wf : DotDims.WF S4x256x4096 S4x256x4096 S4x4096x4096 [1] [1] [2] [2] [0] [0]

variable [Facts₀]

def dot_S4x256x4096_S4x256x4096_S4x4096x4096_1_1_2_2_0_0 : DotDims S4x256x4096 S4x256x4096 S4x4096x4096 where
  lhsContracting := [1]
  rhsContracting := [1]
  lhsNonContracting := [2]
  rhsNonContracting := [2]
  lhsBatch := [0]
  rhsBatch := [0]
  wf := dot_S4x256x4096_S4x256x4096_S4x4096x4096_1_1_2_2_0_0_wf

class Facts : Prop extends Facts₀ where

variable [Facts]
-- ==== Proof.LibFoldMaxDiv.lean ====
/-
  Dividing by a nonnegative extended real commutes with a maximum.

  On the extended reals the quotient `Ideal.div x s` is `x * s⁻¹` off zero (with `(±∞)⁻¹ = 0`) and, at `s = 0`, `⊤` for
  `0 < x` and `⊥` otherwise. For every `0 ≤ s` — zero and `⊤` included — this is a monotone function of the numerator:
  at `s = 0` it is a step from `⊥` to `⊤`, at `s = ⊤` it is constantly `0`, and in between it is multiplication by the
  nonnegative `s⁻¹`. A monotone map of a linear order preserves binary maxima, hence the maximum of a nonempty finite
  family; so `max_i (w i / s) = (max_i w i) / s`, with no finiteness assumption on `w` or `s`. With `s = ∑ w` and
  `0 ≤ w` this is "the largest normalised weight is the largest weight, normalised".
-/
import Idealize.ShloMosaic.PureOps.Ideal.Laws

namespace Cert.LibFoldMaxDiv

open Idealize.ShloMosaic

/-- For a divisor `0 ≤ s` the quotient is monotone in the numerator, at every extended real. -/
theorem div_mono_left {s : EReal} (hs : 0 ≤ s) : Monotone fun x : EReal => Ideal.div x s := by
  intro x y hxy
  show Ideal.div x s ≤ Ideal.div y s
  unfold Ideal.div
  by_cases h0 : s = 0
  · rw [if_pos h0, if_pos h0]
    by_cases hx : 0 < x
    · rw [if_pos hx, if_pos (lt_of_lt_of_le hx hxy)]
    · rw [if_neg hx]; exact bot_le
  · rw [if_neg h0, if_neg h0]
    exact mul_le_mul_of_nonneg_right hxy (EReal.inv_nonneg_of_nonneg hs)

/-- The fold of `max` from `⊥` is the supremum of the family. -/
theorem fold_max_bot_eq_sup {ι : Type} (s : Finset ι) (f : ι → EReal) : s.fold max ⊥ f = s.sup f := rfl

/-- A monotone map commutes with the fold of `max` from `⊥` over a NONEMPTY finite family (over the empty family the
    two sides are `⊥` and the map's value at `⊥`). -/
theorem fold_max_bot_map {ι : Type} [Fintype ι] [Nonempty ι] (g : EReal → EReal) (hg : Monotone g) (w : ι → EReal) :
    (Finset.univ : Finset ι).fold max ⊥ (fun i => g (w i)) = g ((Finset.univ : Finset ι).fold max ⊥ w) := by
  rw [fold_max_bot_eq_sup, fold_max_bot_eq_sup, ← Finset.sup'_eq_sup Finset.univ_nonempty,
    ← Finset.sup'_eq_sup Finset.univ_nonempty]
  exact (Finset.comp_sup'_eq_sup'_comp Finset.univ_nonempty g fun a b => hg.map_sup a b).symm

/-- The largest of the quotients `w i / s` is the largest `w i`, over `s`, for any divisor `0 ≤ s`. -/
theorem fold_max_div {ι : Type} [Fintype ι] [Nonempty ι] (w : ι → EReal) {s : EReal} (hs : 0 ≤ s) :
    (Finset.univ : Finset ι).fold max ⊥ (fun i => Ideal.div (w i) s) = Ideal.div ((Finset.univ : Finset ι).fold max ⊥ w) s :=
  fold_max_bot_map (fun x => Ideal.div x s) (div_mono_left hs) w

/-- Nonnegative weights normalised by their sum: the largest normalised weight is the largest weight over the sum.
    The sum may be `0` or `⊤`. -/
theorem fold_max_div_sum {ι : Type} [Fintype ι] [Nonempty ι] (w : ι → EReal) (hw : ∀ i, 0 ≤ w i) :
    (Finset.univ : Finset ι).fold max ⊥ (fun i => Ideal.div (w i) (∑ j, w j))
      = Ideal.div ((Finset.univ : Finset ι).fold max ⊥ w) (∑ j, w j) :=
  fold_max_div w (Finset.sum_nonneg fun i _ => hw i)

end Cert.LibFoldMaxDiv
-- ==== Proof.RowSpec.lean ====
/-
  One query row of the contextual similarity, as a function on the extended reals.

  A query pixel has a channel vector `a : Fin 256 → EReal` and the keys of its batch form a matrix
  `Y : Fin 256 → Fin 4096 → EReal`. The row's cosine distances are `d m = 1 - Σ_c a c · Y c m`, its weights
  `w m = exp ((1 - d m / (min_m d m + 1e-5)) / 0.1)`, and the row's value is the largest normalised weight.
  The two programs arrange the last step differently: one divides the largest weight by the weights' sum, the other
  takes the largest of the quotients `w m / (0 + Σ w)`. Every weight is an exponential, hence `≥ 0`, so the sum is
  `≥ 0`, and division by a nonnegative extended real is monotone in the numerator: the two arrangements agree at every
  extended real, including a zero or infinite sum. The float constants stay as their bit patterns; only `-∞` (the
  maximum's starting value, which has to be the lattice's bottom) and `0` (the sum's starting value) are evaluated.
-/
import Idealize.ShloMosaic.PureOps.Ideal.Laws
import proofs.«125625_j76338748719505_1_alg».proof.Proof.LibFoldMaxDiv

noncomputable section

namespace Cert.RowSpec

open Idealize.ShloMosaic

/-- The float constants of the row computation, as the extended reals their patterns denote. -/
abbrev one : EReal := Ideal.ofBits .f32 0x3F800000#32
abbrev tiny : EReal := Ideal.ofBits .f32 0x3727C5AC#32
abbrev tenth : EReal := Ideal.ofBits .f32 0x3DCCCCCD#32
abbrev posInf : EReal := Ideal.ofBits .f32 0x7F800000#32
abbrev negInf : EReal := Ideal.ofBits .f32 0xFF800000#32
abbrev zero : EReal := Ideal.ofBits .f32 0x00000000#32

/-- The pattern of `-∞` denotes the bottom of the extended reals. -/
theorem negInf_eq_bot : negInf = ⊥ := by simp [negInf, Ideal.ofBits, Ideal.ieee]

/-- The zero pattern denotes `0`. -/
theorem zero_eq : zero = 0 := Ideal.ofBits_zero_f32

variable (a : Fin 256 → EReal) (Y : Fin 256 → Fin 4096 → EReal)

/-- The cosine distance of the query to key `m`. -/
def dist (m : Fin 4096) : EReal := one - ∑ c : Fin 256, a c * Y c m

/-- The row's smallest distance (the minimum started from `+∞`). -/
def distMin : EReal := (Finset.univ : Finset (Fin 4096)).fold min posInf (dist a Y)

/-- The weight of key `m`: the exponential of the scaled relative distance. -/
def weight (m : Fin 4096) : EReal :=
  Ideal.exp (Ideal.div (one - Ideal.div (dist a Y m) (distMin a Y + tiny)) tenth)

/-- The row's value with the division LAST: the largest weight over the sum of the weights. -/
def maxThenDiv : EReal :=
  Ideal.div ((Finset.univ : Finset (Fin 4096)).fold max negInf (weight a Y)) (∑ m : Fin 4096, weight a Y m)

/-- The row's value with the division FIRST: the largest of the weights each divided by the sum (started from `0`). -/
def divThenMax : EReal :=
  (Finset.univ : Finset (Fin 4096)).fold max negInf fun m => Ideal.div (weight a Y m) (zero + ∑ m' : Fin 4096, weight a Y m')

/-- An exponential is nonnegative at every extended real. -/
theorem exp_nonneg : ∀ x : EReal, 0 ≤ Ideal.exp x
  | ⊥ => le_refl _
  | ⊤ => le_top
  | (r : ℝ) => EReal.coe_nonneg.2 (Real.exp_pos r).le

theorem weight_nonneg (m : Fin 4096) : 0 ≤ weight a Y m := exp_nonneg _

/-- THE LAW: the two arrangements of the row's value agree. -/
theorem divThenMax_eq_maxThenDiv : divThenMax a Y = maxThenDiv a Y := by
  unfold divThenMax maxThenDiv
  rw [zero_eq, zero_add, negInf_eq_bot]
  exact Cert.LibFoldMaxDiv.fold_max_div_sum (weight a Y) (weight_nonneg a Y)

end Cert.RowSpec

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.LibRowReduce.lean ====
/-
  Reductions over the LAST axis, read at coordinates.

  A matrix `[a, b]` reduced over its lane axis gives, at row `r`, the sum / the fold of `max` / the fold of `min` over
  `k : Fin b` of the entry `(r, k)`; a rank-3 array `[n0, n1, n2]` reduced on the host over its last axis gives, at
  `(i, j)`, the fold of the reduce's body from the initial value over `k : Fin n2` of the entry `(i, j, k)`. The library
  states these over the reduced index with the coordinate re-inserted (`Shape.Reduces.lift`); here the re-inserted
  index is written by its coordinates, so that both readings of one row meet as folds of one function on `Fin b`.
  Library imports only.
-/
import Idealize.ShloMosaic.PureOps.Ideal.Laws
import Idealize.ShloMosaic.Lib.ValueIdx

noncomputable section

namespace Cert.LibRowReduce

open Idealize.ShloMosaic Idealize.ShloMosaic.ValueIdx

variable {φ : FTy}

/-- Row `r` with lane `k` put back is the entry `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- A lane sum of a matrix at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A lane maximum of a matrix at row `r`: the fold of `max` from the accumulator's value over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => Finset.fold max (Ideal.ofBits φ acc) f (Finset.univ : Finset (Fin b)))
      (funext fun k => congrArg src (lift_row h r k)))

/-- A lane minimum of a matrix at row `r`: the fold of `min` from the accumulator's value over the row's entries. -/
theorem multiReduction_min_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- Index `(i, j)` with the last coordinate `k` put back is the entry `(i, j, k)`. -/
theorem lift_last3 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c; apply Fin.ext
  fin_cases c <;> rfl

/-- The host's reduce of a rank-3 array over its last axis by a commutative, associative body, at `(i, j)`: the fold from
    the initial value over the entries `(i, j, k)`. -/
theorem hostReduce_last3 {α : Type} {n0 n1 n2 : ℕ} {u : Shape} (f : α → α → α) [Std.Commutative f] [Std.Associative f]
    (x : (⟨3, ![n0, n1, n2]⟩ : Shape).Idx → α) (init : u.Idx → α)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (i : Fin n0) (j : Fin n1) :
    Host.reduce f x init h' hu (ix2 i j)
      = (Finset.univ : Finset (Fin n2)).fold f (init (Shape.Idx.first hu)) fun k => x (ix3 i j k) :=
  (Host.reduce_eq_fold_single f x init h' h hu (ix2 i j)).trans
    (congrArg (fun g => Finset.fold f (init (Shape.Idx.first hu)) g (Finset.univ : Finset (Fin n2)))
      (funext fun k => congrArg x (lift_last3 h i j k)))

/-- The host's float sum of a rank-3 array over its last axis, at `(i, j)`: the initial value plus the entries' sum. -/
theorem hostReduceAdd_last3 {n0 n1 n2 : ℕ} (x : (⟨3, ![n0, n1, n2]⟩ : Shape).Idx → EReal) (init : EReal)
    (h' : (⟨3, ![n0, n1, n2]⟩ : Shape).ReducesTo [2] ⟨2, ![n0, n1]⟩) (h : (⟨3, ![n0, n1, n2]⟩ : Shape).Reduces [2] ⟨2, ![n0, n1]⟩)
    (i : Fin n0) (j : Fin n1) :
    Ideal.hostReduceAdd h' x init (ix2 i j) = init + ∑ k : Fin n2, x (ix3 i j k) :=
  (Ideal.hostReduceAdd_single h' h x init (ix2 i j)).trans
    (congrArg (init + ·) (Finset.sum_congr rfl fun k _ => congrArg x (lift_last3 h i j k)))

end Cert.LibRowReduce

end
-- ==== Proof.KernelPayload.lean ====
/-
  The kernel body's stored value, read at a row.

  The body loads a query block `x0 : [1, 256, 256]` (256 query rows, channels last) and a key block
  `x1 : [1, 256, 4096]` (channels first), and stores a `[1, 256, 1]` column. Entry `(0, r, 0)` of that column depends on
  row `r` of the query block and on the whole key block: with `a c = x0 (0, r, c)` and `Y c m = x1 (0, c, m)`, the
  matrix product's entry `(r, m)` is `Σ_c a c · Y c m`, the lane minimum / sum / maximum at row `r` run over `m`, and
  the column forms carry a row's scalar to `(r, 0)` and back over the lanes. So the entry is the row's value with the
  division last, `RowSpec.maxThenDiv a Y`.
-/
import proofs.«125625_j76338748719505_1_alg».proof.Proof.Gen.KernelIdeal.Skeleton
import proofs.«125625_j76338748719505_1_alg».proof.Proof.RowSpec
import proofs.«125625_j76338748719505_1_alg».proof.Proof.LibDot
import proofs.«125625_j76338748719505_1_alg».proof.Proof.LibColumnLayout
import proofs.«125625_j76338748719505_1_alg».proof.Proof.LibRowReduce
import Idealize.ShloMosaic.Lib.ValueLayout

noncomputable section

namespace Cert.KernelIdeal.RowValue

open Cert.KernelIdeal Cert.KernelIdeal.Gen Idealize.ShloMosaic Idealize.ShloMosaic.ValueIdx

/-! ## The product's dimension numbers: a plain `[256, 256] × [256, 4096]` product -/

theorem dot_l0 (j : S256x4096.Idx) (q : dot_S256x256_S256x4096_S256x4096_1_0_0_1_n_n.contr.Idx) :
    (dot_S256x256_S256x4096_S256x4096_1_0_0_1_n_n.lhsIdx j q 0).val = (j 0).val := by
  unfold DotDims.lhsIdx
  rw [dif_neg (show ¬(0 : Fin S256x256.rank) ∈ dot_S256x256_S256x4096_S256x4096_1_0_0_1_n_n.lhsBatch by decide),
    dif_pos (show (0 : Fin S256x256.rank) ∈ dot_S256x256_S256x4096_S256x4096_1_0_0_1_n_n.lhsNonContracting by decide)]
  rfl
theorem dot_l1 (j : S256x4096.Idx) (q : dot_S256x256_S256x4096_S256x4096_1_0_0_1_n_n.contr.Idx) :
    (dot_S256x256_S256x4096_S256x4096_1_0_0_1_n_n.lhsIdx j q 1).val = (q ⟨0, by decide⟩).val :=
  dot_S256x256_S256x4096_S256x4096_1_0_0_1_n_n.lhsIdx_val_of_single rfl j q
theorem dot_r0 (j : S256x4096.Idx) (q : dot_S256x256_S256x4096_S256x4096_1_0_0_1_n_n.contr.Idx) :
    (dot_S256x256_S256x4096_S256x4096_1_0_0_1_n_n.rhsIdx j q 0).val = (q ⟨0, by decide⟩).val :=
  dot_S256x256_S256x4096_S256x4096_1_0_0_1_n_n.rhsIdx_val_of_single rfl j q
theorem dot_r1 (j : S256x4096.Idx) (q : dot_S256x256_S256x4096_S256x4096_1_0_0_1_n_n.contr.Idx) :
    (dot_S256x256_S256x4096_S256x4096_1_0_0_1_n_n.rhsIdx j q 1).val = (j 1).val := by
  unfold DotDims.rhsIdx
  rw [dif_neg (show ¬(1 : Fin S256x4096.rank) ∈ dot_S256x256_S256x4096_S256x4096_1_0_0_1_n_n.rhsBatch by decide),
    dif_pos (show (1 : Fin S256x4096.rank) ∈ dot_S256x256_S256x4096_S256x4096_1_0_0_1_n_n.rhsNonContracting by decide)]
  rfl

/-! ## The body's steps that are not pointwise, each named and read at a row -/

/-- The product of the two loaded blocks, their unit axes dropped. -/
def prodBlk (x0 : Vec Ideal S1x256x256 .f32) (x1 : Vec Ideal S1x256x4096 .f32) : FVec Ideal S256x4096 .f32 :=
  matmul dot_S256x256_S256x4096_S256x4096_1_0_0_1_n_n none (shapeCast S256x256 x0 shapeCasts_S1x256x256_S256x256 : FVec Ideal S256x256 .f32)
    (shapeCast S256x4096 x1 shapeCasts_S1x256x4096_S256x4096 : FVec Ideal S256x4096 .f32) (constant S256x4096 .f32 0x00000000#32)

/-- Entry `(r, m)` of the product: the row's channels against key `m`'s. -/
theorem prodBlk_apply (x0 : Vec Ideal S1x256x256 .f32) (x1 : Vec Ideal S1x256x4096 .f32) (r : Fin 256) (m : Fin 4096) :
    prodBlk x0 x1 (ix2 r m) = ∑ c : Fin 256, x0 (ix3 (0 : Fin 1) r c) * x1 (ix3 (0 : Fin 1) c m) :=
  (Cert.LibDot.matmul_zero_apply dot_S256x256_S256x4096_S256x4096_1_0_0_1_n_n rfl rfl dot_l0 dot_l1 dot_r0 dot_r1 none
      (shapeCast S256x256 x0 shapeCasts_S1x256x256_S256x256 : FVec Ideal S256x256 .f32)
      (shapeCast S256x4096 x1 shapeCasts_S1x256x4096_S256x4096 : FVec Ideal S256x4096 .f32) r m).trans
    (Finset.sum_congr rfl fun c _ => by
      rw [shapeCast_1ab_ab_apply x0 shapeCasts_S1x256x256_S256x256 r c, shapeCast_1ab_ab_apply x1 shapeCasts_S1x256x4096_S256x4096 c m])

/-- A block's lane minimum, lane sum and lane maximum, one scalar per row. -/
def rowMin (d : FVec Ideal S256x4096 .f32) : FVec Ideal S256 .f32 :=
  multiReduction .minimumf [1] S256 d 0x7F800000#32 reduces_S256x4096_S256 (.inl rfl) rfl
def rowSum (w : FVec Ideal S256x4096 .f32) : FVec Ideal S256 .f32 :=
  multiReduction .add [1] S256 w 0x00000000#32 reduces_S256x4096_S256 (.inl rfl) rfl
def rowMax (w : FVec Ideal S256x4096 .f32) : FVec Ideal S256 .f32 :=
  multiReduction .maximumf [1] S256 w 0xFF800000#32 reduces_S256x4096_S256 (.inl rfl) rfl

theorem rowMin_apply (d : FVec Ideal S256x4096 .f32) (r : Fin 256) :
    rowMin d (ix1 r) = (Finset.univ : Finset (Fin 4096)).fold min RowSpec.posInf fun k => d (ix2 r k) :=
  Cert.LibRowReduce.multiReduction_min_row d 0x7F800000#32 reduces_S256x4096_S256 (.inl rfl) rfl r
theorem rowSum_apply (w : FVec Ideal S256x4096 .f32) (r : Fin 256) :
    rowSum w (ix1 r) = ∑ k : Fin 4096, w (ix2 r k) :=
  Cert.LibRowReduce.multiReduction_add_row w 0x00000000#32 reduces_S256x4096_S256 (.inl rfl) rfl r
theorem rowMax_apply (w : FVec Ideal S256x4096 .f32) (r : Fin 256) :
    rowMax w (ix1 r) = (Finset.univ : Finset (Fin 4096)).fold max RowSpec.negInf fun k => w (ix2 r k) :=
  Cert.LibRowReduce.multiReduction_max_row w 0xFF800000#32 reduces_S256x4096_S256 (.inl rfl) rfl r

/-- A per-row scalar as a column, and a column spread over the lanes. -/
def asCol (v : FVec Ideal S256 .f32) : FVec Ideal S256x1 .f32 := shapeCast S256x1 v shapeCasts_S256_S256x1
def overLanes (col : FVec Ideal S256x1 .f32) : FVec Ideal S256x4096 .f32 := broadcastTo S256x4096 col broadcasts_S256x1_S256x4096

theorem asCol_apply (v : FVec Ideal S256 .f32) (r : Fin 256) : asCol v (ix2 r (0 : Fin 1)) = v (ix1 r) :=
  Cert.LibColumnLayout.shapeCast_a_a1_apply v shapeCasts_S256_S256x1 r 0
theorem overLanes_apply (col : FVec Ideal S256x1 .f32) (r : Fin 256) (m : Fin 4096) :
    overLanes col (ix2 r m) = col (ix2 r (0 : Fin 1)) :=
  Cert.LibColumnLayout.broadcastTo_a1_ab_apply col broadcasts_S256x1_S256x4096 r m

/-! ## The body's intermediate blocks -/

/-- The block of cosine distances: one minus the product. -/
def distBlk (x0 : Vec Ideal S1x256x256 .f32) (x1 : Vec Ideal S1x256x4096 .f32) : FVec Ideal S256x4096 .f32 :=
  subf (broadcast S256x4096 (Scalar.ofBits .f32 0x3F800000#32)) (prodBlk x0 x1)

/-- The block of weights, from the block of distances. -/
def weightBlk (d : FVec Ideal S256x4096 .f32) : FVec Ideal S256x4096 .f32 :=
  exp (divf (subf (broadcast S256x4096 (Scalar.ofBits .f32 0x3F800000#32))
      (divf d (overLanes (addf (asCol (rowMin d)) (broadcast S256x1 (Scalar.ofBits .f32 0x3727C5AC#32))))))
    (broadcast S256x4096 (Scalar.ofBits .f32 0x3DCCCCCD#32)))

/-- The stored column, from the block of weights: the lane maximum over the lane sum. -/
def colOf (w : FVec Ideal S256x4096 .f32) : FVec Ideal S256x1 .f32 := divf (asCol (rowMax w)) (asCol (rowSum w))

set_option maxRecDepth 65536 in
/-- The body's payload is these steps and the cast that adds the block's unit axis. -/
theorem pay_eq (x0 : Vec Ideal S1x256x256 .f32) (x1 : Vec Ideal S1x256x4096 .f32) :
    k0_pay1 (F := Ideal) x0 x1 = shapeCast S1x256x1 (colOf (weightBlk (distBlk x0 x1))) shapeCasts_S256x1_S1x256x1 := rfl

/-! ## Pointwise steps at an index, and a splatted constant at an index (the pattern a VARIABLE, so that no float
literal is ever evaluated: constants only meet as the same word on both sides) -/

theorem exp_apply {s : Shape} (x : FVec Ideal s .f32) (i : s.Idx) : exp x i = Ideal.exp (x i) := rfl
theorem splat_apply {s : Shape} (b : BitVec 32) (i : s.Idx) :
    broadcast s (Scalar.ofBits (F := Ideal) .f32 b) i = Ideal.ofBits .f32 b := rfl

/-! ## Each block at a row -/

variable (x0 : Vec Ideal S1x256x256 .f32) (x1 : Vec Ideal S1x256x4096 .f32)

/-- Entry `(r, m)` of the distances. -/
theorem distBlk_apply (r : Fin 256) (m : Fin 4096) :
    distBlk x0 x1 (ix2 r m) = RowSpec.dist (fun c => x0 (ix3 (0 : Fin 1) r c)) (fun c m => x1 (ix3 (0 : Fin 1) c m)) m := by
  unfold distBlk RowSpec.dist
  rw [subf_apply, splat_apply, prodBlk_apply x0 x1 r m]

/-- Entry `(r, m)` of the weights, over any block of distances `d`: the exponential of the scaled relative distance, the
    row's minimum taken over the row's entries of `d`. -/
theorem weightBlk_apply (d : FVec Ideal S256x4096 .f32) (r : Fin 256) (m : Fin 4096) :
    weightBlk d (ix2 r m)
      = Ideal.exp (Ideal.div (RowSpec.one - Ideal.div (d (ix2 r m))
          ((Finset.univ : Finset (Fin 4096)).fold min RowSpec.posInf (fun k => d (ix2 r k)) + RowSpec.tiny)) RowSpec.tenth) := by
  unfold weightBlk
  rw [exp_apply, divf_apply, splat_apply, subf_apply, splat_apply, divf_apply,
    overLanes_apply (addf (asCol (rowMin d)) (broadcast S256x1 (Scalar.ofBits .f32 0x3727C5AC#32))) r m,
    addf_apply, splat_apply, asCol_apply (rowMin d) r, rowMin_apply d r]

/-- Entry `(r, 0)` of the stored column, over any block of weights `w`. -/
theorem colOf_apply (w : FVec Ideal S256x4096 .f32) (r : Fin 256) :
    colOf w (ix2 r (0 : Fin 1))
      = Ideal.div ((Finset.univ : Finset (Fin 4096)).fold max RowSpec.negInf fun k => w (ix2 r k)) (∑ k : Fin 4096, w (ix2 r k)) := by
  unfold colOf
  rw [divf_apply, asCol_apply (rowMax w) r, asCol_apply (rowSum w) r, rowMax_apply w r, rowSum_apply w r]

/-- THE PAYLOAD AT A ROW: entry `(0, r, 0)` of the stored block is the row's value with the division last. -/
theorem pay_row (r : Fin 256) :
    k0_pay1 (F := Ideal) x0 x1 (ix3 (0 : Fin 1) r (0 : Fin 1))
      = RowSpec.maxThenDiv (fun c => x0 (ix3 (0 : Fin 1) r c)) (fun c m => x1 (ix3 (0 : Fin 1) c m)) := by
  rw [pay_eq, shapeCast_ab_1ab_apply (colOf (weightBlk (distBlk x0 x1))) shapeCasts_S256x1_S1x256x1 0 r 0, colOf_apply]
  unfold RowSpec.maxThenDiv
  have hw : (fun k : Fin 4096 => weightBlk (distBlk x0 x1) (ix2 r k))
      = RowSpec.weight (fun c => x0 (ix3 (0 : Fin 1) r c)) (fun c m => x1 (ix3 (0 : Fin 1) c m)) := by
    funext k
    rw [weightBlk_apply]
    unfold RowSpec.weight RowSpec.distMin
    simp only [distBlk_apply]
  rw [hw]

/-- The same at any index of the stored block: its two unit coordinates carry nothing. -/
theorem pay_at (y : S1x256x1.Idx) :
    k0_pay1 (F := Ideal) x0 x1 y
      = RowSpec.maxThenDiv (fun c => x0 (ix3 (0 : Fin 1) (y 1) c)) (fun c m => x1 (ix3 (0 : Fin 1) c m)) := by
  have hy : y = ix3 (0 : Fin 1) (y 1) (0 : Fin 1) := by
    funext a; apply Fin.ext
    match a with
    | ⟨0, _⟩ => show (y 0).val = 0; have h : (y 0).val < 1 := (y 0).isLt; omega
    | ⟨1, _⟩ => rfl
    | ⟨2, _⟩ => show (y 2).val = 0; have h : (y 2).val < 1 := (y 2).isLt; omega
  rw [hy]
  exact pay_row x0 x1 (y 1)

end Cert.KernelIdeal.RowValue

end
-- ==== Proof.KernelArray.lean ====
/-
  From the blocks to the output array.

  The grid has 4 × 16 points; point `(b, q)` stages the query block of rows `256 q … 256 q + 255` of batch `b` (all 256
  channels), the whole key matrix of batch `b`, and writes back rows `256 q … 256 q + 255` of batch `b`'s output column.
  Every output index `(b, n, 0)` lies in exactly the block of point `(b, n / 256)`, and what that point writes at it is
  the row's value of query pixel `n`: its channel vector read from the query array at `(b, n, ·)`, against the key
  matrix `(b, ·, ·)`. So the array the region leaves is ONE function of the two arrays it stages.
-/
import proofs.«125625_j76338748719505_1_alg».proof.Proof.Gen.KernelIdeal.Frame
import proofs.«125625_j76338748719505_1_alg».proof.Proof.KernelPayload
import Idealize.ShloMosaic.Lib.Pipeline.Value

noncomputable section

namespace Cert.KernelIdeal.RowValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0, 0] : Fin 3 → Nat) = fun _ => 0 := funext fun a => by fin_cases a <;> rfl

/-- Where output index `i` reads the query array (its own batch and pixel, channel `ch`) and the key array (its batch,
    channel `ch`, key `k`). -/
def qIdx (i : S4x4096x1.Idx) (ch : Fin 256) : S4x4096x256.Idx := ix3 (i 0) (i 1) ch
def kIdx (i : S4x4096x1.Idx) (ch : Fin 256) (k : Fin 4096) : S4x256x4096.Idx := ix3 (i 0) ch k

/-- The output array as one function of the two arrays the region stages: at each index the row's value (division
    last) of that pixel's channel vector against its batch's keys. -/
def cxArr (xt : S4x4096x256.Idx → EReal) (y : S4x256x4096.Idx → EReal) : S4x4096x1.Idx → EReal := fun i =>
  RowSpec.maxThenDiv (fun ch => xt (qIdx i ch)) (fun ch k => y (kIdx i ch k))

/-- The printed index maps over the grid: the query window moves with the output window on the batch and row-block
    axes, the key window on the batch axis only; every other block index is zero. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 :=
  (by decide +kernel : ∀ t : Fin grid0.N, _)

/-- Every (batch, row block) pair is SOME point's output block. -/
theorem idx_onto : ∀ (q0 : Fin 4) (q1 : Fin 16), ∃ t : Fin cfg0.N, win0_2.index t = ![q0.val, q1.val, 0] :=
  (by decide +kernel : ∀ (q0 : Fin 4) (q1 : Fin 16), ∃ t : Fin grid0.N, win0_2.index t = ![q0.val, q1.val, 0])

/-- The two arrays the region stages, as it finds them: the query array (pixels × channels) and the key array
    (channels × pixels). Named, so that what the host computed into them is never opened here. -/
def qArr (c : Dev nD) : S4x4096x256.Idx → EReal := V m c main_v27
def kArr (c : Dev nD) : S4x256x4096.Idx → EReal := V m c main_v26

/-- A block of the query window read at an index, for ANY contents `A` of the query array: `A` where the block sits. -/
theorem qblk_read (A : S4x4096x256.Idx → EReal) (t : Fin cfg0.N) (y : S1x256x256.Idx) (k : S4x4096x256.Idx)
    (h0 : win0_0.index t (0 : Fin 3) * 1 + 1 * (y 0).val = (k 0).val)
    (h1 : win0_0.index t (1 : Fin 3) * 256 + 1 * (y 1).val = (k 1).val)
    (h2 : win0_0.index t (2 : Fin 3) * 256 + 1 * (y 2).val = (k 2).val) :
    ((cfg0.win 0).blk t).view.read (Elt Ideal) A y = A k := by
  rw [View.read_apply]
  refine congrArg A ?_
  funext a; apply Fin.ext
  match a with
  | ⟨0, _⟩ => exact h0
  | ⟨1, _⟩ => exact h1
  | ⟨2, _⟩ => exact h2

/-- A block of the key window read at an index, for ANY contents `A` of the key array. -/
theorem kblk_read (A : S4x256x4096.Idx → EReal) (t : Fin cfg0.N) (y : S1x256x4096.Idx) (k : S4x256x4096.Idx)
    (h0 : win0_1.index t (0 : Fin 3) * 1 + 1 * (y 0).val = (k 0).val)
    (h1 : win0_1.index t (1 : Fin 3) * 256 + 1 * (y 1).val = (k 1).val)
    (h2 : win0_1.index t (2 : Fin 3) * 4096 + 1 * (y 2).val = (k 2).val) :
    ((cfg0.win 1).blk t).view.read (Elt Ideal) A y = A k := by
  rw [View.read_apply]
  refine congrArg A ?_
  funext a; apply Fin.ext
  match a with
  | ⟨0, _⟩ => exact h0
  | ⟨1, _⟩ => exact h1
  | ⟨2, _⟩ => exact h2

/-- The windows' blocks at a point are those reads of the two staged arrays. -/
theorem iblk0_eq (c : Dev nD) (t : Fin cfg0.N) :
    (iblk m c 0 t : Vec Ideal S1x256x256 .f32) = ((cfg0.win 0).blk t).view.read (Elt Ideal) (qArr m c) := rfl
theorem iblk1_eq (c : Dev nD) (t : Fin cfg0.N) :
    (iblk m c 1 t : Vec Ideal S1x256x4096 .f32) = ((cfg0.win 1).blk t).view.read (Elt Ideal) (kArr m c) := rfl

/-- WHAT POINT `t` WRITES BACK is block `t` of `cxArr` of the two staged arrays as the region finds them. -/
theorem flushed_eq (c : Dev nD) (t : Fin cfg0.N) :
    (dats m 0 c).flushed 2 t = ((cfg0.win 2).blk t).view.read (Elt Ideal) (cxArr (qArr m c) (kArr m c)) := by
  show (cfg0.win 2).cut (grid0.coords t) ((dats m 0 c).after 2 t) = _
  rw [after0_2]
  unfold out0_2
  rw [View.canon_unit_zero hz]
  simp only [View.ld_unit_zero (S := S1x256x256) hz, View.ld_unit_zero (S := S1x256x4096) hz]
  obtain ⟨e0, e1, e2, e3, e4, e5, e6⟩ := idx_facts t
  funext j
  show k0_pay1 (F := Ideal) (iblk m c 0 t) (iblk m c 1 t) j = cxArr (qArr m c) (kArr m c) (((cfg0.win 2).blk t).view.emb j)
  refine (pay_at (iblk m c 0 t) (iblk m c 1 t) j).trans ?_
  unfold cxArr
  have hj0 : (j 0).val < 1 := (j 0).isLt
  have hj2 : (j 2).val < 1 := (j 2).isLt
  refine congrArg₂ RowSpec.maxThenDiv (funext fun ch => ?_) (funext fun ch => funext fun k => ?_)
  · refine (congrFun (iblk0_eq m c t) _).trans (qblk_read (qArr m c) t _ _ ?_ ?_ ?_)
    · show win0_0.index t (0 : Fin 3) * 1 + 1 * 0 = win0_2.index t (0 : Fin 3) * 1 + 1 * (j 0).val
      omega
    · show win0_0.index t (1 : Fin 3) * 256 + 1 * (j 1).val = win0_2.index t (1 : Fin 3) * 256 + 1 * (j 1).val
      omega
    · show win0_0.index t (2 : Fin 3) * 256 + 1 * ch.val = ch.val
      omega
  · refine (congrFun (iblk1_eq m c t) _).trans (kblk_read (kArr m c) t _ _ ?_ ?_ ?_)
    · show win0_1.index t (0 : Fin 3) * 1 + 1 * 0 = win0_2.index t (0 : Fin 3) * 1 + 1 * (j 0).val
      omega
    · show win0_1.index t (1 : Fin 3) * 256 + 1 * ch.val = ch.val
      omega
    · show win0_1.index t (2 : Fin 3) * 4096 + 1 * k.val = k.val
      omega

/-- An index of the output array is in point `t`'s block iff each coordinate is in the block's range on its axis. -/
theorem mem_blk (t : Fin cfg0.N) (i : S4x4096x1.Idx) :
    i ∈ ((cfg0.win 2).blk t).view.set ↔ ∀ a : Fin 3, win0_2.index t a * S1x256x1.size a ≤ (i a).val ∧ (i a).val < win0_2.index t a * S1x256x1.size a + S1x256x1.size a := by
  show i ∈ ((View.whole main_v28).slice (win0_2.rect t)).set ↔ _
  rw [View.set_slice_whole, Rect.mem_set_unit]
  exact Iff.rfl

/-- Every index of the output array is in the block of the point of its batch and of its row's block of 256. -/
theorem cover (i : S4x4096x1.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 1 := (i 2).isLt
  obtain ⟨t, ht⟩ := idx_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1 ≤ (i 2).val ∧ (i 2).val < win0_2.index t (2 : Fin 3) * 1 + 1; omega

/-- THE ARRAY after the region: `cxArr` of the two staged arrays. -/
theorem final (c : Dev nD) : (dats m 0 c).arrAt 2 cfg0.N = cxArr (qArr m c) (kArr m c) :=
  (dats m 0 c).arrAt_eq_of_cover 2 (cxArr (qArr m c) (kArr m c)) (fun t _ => flushed_eq m c t) cover

end Cert.KernelIdeal.RowValue

end
-- ==== Proof.RefRow.lean ====
/-
  The reference's per-row maximum, read at a batch and a query pixel.

  The reference forms the whole `[4, 4096, 4096]` distance tensor from the normalised query and key arrays
  `xn, yn : [4, 256, 4096]` (channels first), then works along its last axis. At `(b, n)` everything depends on the
  query's channel vector `a c = xn (b, c, n)` and the batch's key matrix `Y c m = yn (b, c, m)`: the product's entry
  `(b, n, m)` is `Σ_c a c · Y c m`, and the minimum, the sum and the maximum over the last axis at `(b, n)` run over `m`.
  The reference divides each weight by the row's sum BEFORE taking the maximum, so its value at `(b, n)` is
  `RowSpec.divThenMax a Y`; by the row law that is `RowSpec.maxThenDiv a Y`. The normalised arrays stay the opaque
  stages `val_main_v25`, `val_main_v26`: nothing here looks inside the normalisation.
-/
import proofs.«125625_j76338748719505_1_alg».proof.Proof.Gen.ReferenceIdeal.Read
import proofs.«125625_j76338748719505_1_alg».proof.Proof.RowSpec
import proofs.«125625_j76338748719505_1_alg».proof.Proof.LibRowReduce

noncomputable section

namespace Cert.ReferenceIdeal.RowValue

open Cert.ReferenceIdeal Cert.ReferenceIdeal.Gen Cert.ReferenceIdeal.Read Idealize.ShloMosaic Idealize.ShloMosaic.ValueIdx

variable (x0 x1 : (⟨S4x256x64x64, .f32⟩ : BufTy).Contents (Elt Ideal))

/-- The channel vector of query pixel `n` of batch `b`, and batch `b`'s key matrix. -/
def qry (b : Fin 4) (n : Fin 4096) : Fin 256 → EReal := fun c => val_main_v25 (F := Ideal) x0 x1 (ix3 b c n)
def keys (b : Fin 4) : Fin 256 → Fin 4096 → EReal := fun c m => val_main_v26 (F := Ideal) x1 (ix3 b c m)

/-- The distance tensor at `(b, n, m)`. -/
theorem dist_apply (b : Fin 4) (n m : Fin 4096) :
    val_main_v29 (F := Ideal) x0 x1 (ix3 b n m) = RowSpec.dist (qry x0 x1 b n) (keys x1 b) m := by
  rw [val_main_v29_apply, val_main_v28_apply, val_main_cst_5_apply, val_main_v27_apply, Ideal.subf_def, Ideal.ofBits_def]
  unfold RowSpec.dist qry keys
  refine congrArg (Ideal.ofBits .f32 0x3F800000#32 - ·) (Finset.sum_congr rfl fun c _ => ?_)
  have el : lidx_main_v27 (ix3 b n m) c = ix3 b c n := funext fun a => Fin.ext (by
    match a with | ⟨0, _⟩ => rfl | ⟨1, _⟩ => rfl | ⟨2, _⟩ => rfl)
  have er : ridx_main_v27 (ix3 b n m) c = ix3 b c m := funext fun a => Fin.ext (by
    match a with | ⟨0, _⟩ => rfl | ⟨1, _⟩ => rfl | ⟨2, _⟩ => rfl)
  rw [el, er]

/-- The last axis of the distance tensor can be reduced away. -/
theorem reduces_last : S4x4096x4096.Reduces [2] S4x4096 := by decide

/-- The row minimum at `(b, n)`. -/
theorem distMin_apply (b : Fin 4) (n : Fin 4096) :
    val_main_v30 (F := Ideal) x0 x1 (ix2 b n) = RowSpec.distMin (qry x0 x1 b n) (keys x1 b) := by
  unfold val_main_v30 RowSpec.distMin
  refine (Cert.LibRowReduce.hostReduce_last3 (FloatOps.minimumf (F := Ideal) (φ := .f32)) (val_main_v29 (F := Ideal) x0 x1)
    (val_main_cst_6 (F := Ideal)) reducesTo_S4x4096x4096_S4x4096_d2 reduces_last h_S_ b n).trans ?_
  rw [val_main_cst_6_apply, Ideal.ofBits_def]
  exact congrArg (fun g => Finset.fold (FloatOps.minimumf (F := Ideal) (φ := .f32)) (Ideal.ofBits .f32 0x7F800000#32) g
    (Finset.univ : Finset (Fin 4096))) (funext fun k => dist_apply x0 x1 b n k)

/-- The weight tensor at `(b, n, m)`. -/
theorem weight_apply (b : Fin 4) (n m : Fin 4096) :
    val_main_v40 (F := Ideal) x0 x1 (ix3 b n m) = RowSpec.weight (qry x0 x1 b n) (keys x1 b) m := by
  have e34 : idx_main_v31 (idx_main_v34 (ix3 b n m)) = ix2 b n := funext fun a => Fin.ext (by
    match a with | ⟨0, _⟩ => rfl | ⟨1, _⟩ => rfl)
  rw [val_main_v40_apply, val_main_v39_apply, val_main_v38_apply, val_main_cst_9_apply, val_main_v37_apply, val_main_v36_apply,
    val_main_cst_8_apply, val_main_v35_apply, val_main_v34_apply, val_main_v33_apply, val_main_v32_apply, val_main_cst_7_apply,
    val_main_v31_apply, e34, distMin_apply, dist_apply, Ideal.hostUnary_exp_def, Ideal.hostDivf_def, Ideal.subf_def,
    Ideal.hostDivf_def, Ideal.addf_def, Ideal.ofBits_def, Ideal.ofBits_def, Ideal.ofBits_def]
  unfold RowSpec.weight
  rfl

/-- The row sum at `(b, n)`: the sum's starting value plus the row's weights. -/
theorem weightSum_apply (b : Fin 4) (n : Fin 4096) :
    val_main_v41 (F := Ideal) x0 x1 (ix2 b n) = RowSpec.zero + ∑ k : Fin 4096, RowSpec.weight (qry x0 x1 b n) (keys x1 b) k := by
  rw [val_main_v41_apply, val_main_cst_10_apply, Ideal.ofBits_def]
  refine congrArg (Ideal.ofBits .f32 0x00000000#32 + ·) (Finset.sum_congr rfl fun k _ => ?_)
  have e : idx_main_v41 (ix2 b n) k = ix3 b n k := funext fun a => Fin.ext (by
    match a with | ⟨0, _⟩ => rfl | ⟨1, _⟩ => rfl | ⟨2, _⟩ => rfl)
  rw [e, weight_apply]

/-- The normalised weight at `(b, n, m)`. -/
theorem quot_apply (b : Fin 4) (n m : Fin 4096) :
    val_main_v44 (F := Ideal) x0 x1 (ix3 b n m)
      = Ideal.div (RowSpec.weight (qry x0 x1 b n) (keys x1 b) m)
          (RowSpec.zero + ∑ k : Fin 4096, RowSpec.weight (qry x0 x1 b n) (keys x1 b) k) := by
  have e43 : idx_main_v42 (idx_main_v43 (ix3 b n m)) = ix2 b n := funext fun a => Fin.ext (by
    match a with | ⟨0, _⟩ => rfl | ⟨1, _⟩ => rfl)
  rw [val_main_v44_apply, val_main_v43_apply, val_main_v42_apply, e43, weightSum_apply, weight_apply, Ideal.hostDivf_def]

/-- THE REFERENCE AT A ROW: the per-row maximum at `(b, n)` is the row's value with the division first … -/
theorem rowMax_apply (b : Fin 4) (n : Fin 4096) :
    val_main_v45 (F := Ideal) x0 x1 (ix2 b n) = RowSpec.divThenMax (qry x0 x1 b n) (keys x1 b) := by
  unfold val_main_v45 RowSpec.divThenMax
  refine (Cert.LibRowReduce.hostReduce_last3 (FloatOps.maximumf (F := Ideal) (φ := .f32)) (val_main_v44 (F := Ideal) x0 x1)
    (val_main_cst_11 (F := Ideal)) reducesTo_S4x4096x4096_S4x4096_d2 reduces_last h_S_ b n).trans ?_
  rw [val_main_cst_11_apply, Ideal.ofBits_def]
  exact congrArg (fun g => Finset.fold (FloatOps.maximumf (F := Ideal) (φ := .f32)) (Ideal.ofBits .f32 0xFF800000#32) g
    (Finset.univ : Finset (Fin 4096))) (funext fun k => quot_apply x0 x1 b n k)

/-- … which is the row's value with the division last. -/
theorem rowMax_eq (b : Fin 4) (n : Fin 4096) :
    val_main_v45 (F := Ideal) x0 x1 (ix2 b n) = RowSpec.maxThenDiv (qry x0 x1 b n) (keys x1 b) :=
  (rowMax_apply x0 x1 b n).trans (RowSpec.divThenMax_eq_maxThenDiv _ _)

end Cert.ReferenceIdeal.RowValue

end
-- ==== Proof.KernelRun.lean ====
/-
  The kernel's run, read: its result is the reference's result term of the same arguments.

  Before the region the kernel's program normalises both inputs with the very operations the reference uses (centre
  by the key's per-channel mean, divide by the channel norm plus epsilon, flatten the pixels), then transposes the query
  array to pixels × channels. So the key array the region stages IS the reference's normalised key stage, and the query
  array is the reference's normalised query stage with its last two axes swapped; neither is opened. The region leaves a
  `[4, 4096, 1]` column whose entry `(b, n, 0)` is the row's value of pixel `n` (division last), which the row law
  identifies with the reference's per-row maximum at `(b, n)` (division first). After the region both programs apply
  one tail — drop the unit axis, mean over the pixels, logarithm, negation — to equal arrays.
-/
import proofs.«125625_j76338748719505_1_alg».proof.Proof.KernelArray
import proofs.«125625_j76338748719505_1_alg».proof.Proof.RefRow
import Idealize.ShloMosaic.Lib.StableHlo.Run
import Idealize.ShloMosaic.Lib.ValueLayout

noncomputable section

namespace Cert.KernelIdeal.RowValue

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-! ## The two staged arrays are the reference's normalised stages -/

/-- The key array: the normalised keys, channels × pixels. -/
theorem kArr_eq (c : Dev nD) :
    kArr m c = Cert.ReferenceIdeal.Read.val_main_v26 (F := Ideal) (m ((c.tc : Thread nD τ).loc main_arg1)) := by
  unfold kArr
  show StableHlo.after hostOps0 (fun b => m (c, b)) (Proc.devRef .tc main_v26) = _
  after_results_simp
  rfl

/-- The query array: the normalised queries, transposed to pixels × channels. -/
theorem qArr_eq (c : Dev nD) :
    qArr m c = transpose S4x4096x256 [0, 2, 1]
      (Cert.ReferenceIdeal.Read.val_main_v25 (F := Ideal) (m ((c.tc : Thread nD τ).loc main_arg0)) (m ((c.tc : Thread nD τ).loc main_arg1)))
      transposes_S4x256x4096_S4x4096x256_0_2_1 := by
  unfold qArr
  show StableHlo.after hostOps0 (fun b => m (c, b)) (Proc.devRef .tc main_v27) = _
  after_results_simp
  rfl

/-! ## The output column against the reference's per-row maximum -/

/-- Entry `(b, n, 0)` of the region's output is the reference's per-row maximum at `(b, n)`. -/
theorem cxArr_row (c : Dev nD) (b : Fin 4) (n : Fin 4096) :
    cxArr (qArr m c) (kArr m c) (ix3 b n (0 : Fin 1))
      = Cert.ReferenceIdeal.Read.val_main_v45 (F := Ideal) (m ((c.tc : Thread nD τ).loc main_arg0)) (m ((c.tc : Thread nD τ).loc main_arg1)) (ix2 b n) := by
  rw [Cert.ReferenceIdeal.RowValue.rowMax_eq]
  unfold cxArr Cert.ReferenceIdeal.RowValue.qry Cert.ReferenceIdeal.RowValue.keys
  rw [qArr_eq, kArr_eq]
  refine congrArg₂ RowSpec.maxThenDiv (funext fun ch => ?_) rfl
  exact transpose_ix3_021_apply _ transposes_S4x256x4096_S4x4096x256_0_2_1 b n ch

/-- The output column with its unit axis dropped is the reference's array of per-row maxima. -/
theorem rows_eq (c : Dev nD) :
    shapeCast S4x4096 (cxArr (qArr m c) (kArr m c)) shapeCasts_S4x4096x1_S4x4096
      = Cert.ReferenceIdeal.Read.val_main_v45 (F := Ideal) (m ((c.tc : Thread nD τ).loc main_arg0)) (m ((c.tc : Thread nD τ).loc main_arg1)) := by
  funext j
  obtain ⟨b, n, rfl⟩ : ∃ (b : Fin 4) (n : Fin 4096), j = ix2 b n := ⟨j 0, j 1, eq_ix2 j⟩
  refine (shapeCast_apply (cxArr (qArr m c) (kArr m c)) shapeCasts_S4x4096x1_S4x4096 (ix2 b n) (ix3 b n (0 : Fin 1)) ?_).trans
    (cxArr_row m c b n)
  rw [Shape.rowMajor_val_three, Shape.rowMajor_val_two]
  show (b.val * 4096 + n.val) * 1 + 0 = b.val * 4096 + n.val
  omega

/-! ## The host tail -/

/-- What both programs do after the per-row values: the mean over the pixels, its logarithm, negated. -/
def tail (z : FVec Ideal S4x4096 .f32) : FVec Ideal S4 .f32 :=
  Host.negf (Host.log (Host.divf (Host.reduceAdd z (constant S_ .f32 0x00000000#32) reducesTo_S4x4096_S4_d1 h_S_)
    (broadcastInDim S4 ![] bcast_S_S4 (constant S_ .f32 0x45800000#32))))

/-- The program's result after the region's lines: the tail of the region's output column, its unit axis dropped. -/
theorem result_eq (c : Dev nD) :
    Pipeline.afterTail₀ cfgs (dats m) 0 (V0 m) [hostOps1] c main_v34
      = tail (shapeCast S4x4096 ((dats m 0 c).arrAt 2 cfg0.N) shapeCasts_S4x4096x1_S4x4096) := by
  unfold Pipeline.afterTail₀
  show StableHlo.after hostOps1 _ (Proc.devRef .tc main_v34) = _
  after_results
  have hw : Pipeline.withArrays (cfgs 0).spec c (V0 m c) (fun w => (dats m 0 c).arrAt w (cfgs 0).N) (Proc.devRef .tc main_v28)
      = (dats m 0 c).arrAt 2 cfg0.N :=
    Pipeline.withArrays_arr spec0 launch0.win.arr_inj c (V0 m c) _ 2
  rw [hw]
  rfl

/-- THE VALUE: the kernel program's result is the reference's last stage of the same arguments. -/
theorem value (c : Dev nD) :
    Pipeline.afterTail₀ cfgs (dats m) 0 (V0 m) [hostOps1] c main_v34
      = Cert.ReferenceIdeal.Read.val_main_v50 (F := Ideal) (m ((c.tc : Thread nD τ).loc main_arg0)) (m ((c.tc : Thread nD τ).loc main_arg1)) := by
  rw [result_eq, final, rows_eq]
  rfl

/-! ## The run -/

/-- Every weakly fair execution of the kernel's program terminates with its result at the reference's last stage of the
    arguments, and the arguments unchanged. -/
theorem run : θ_run defs (onTc (τ := τ) (main (F := Ideal))) ⟨m, fun _ => 0, ρ⟩ fun r => ∀ c : Dev nD,
      r.2.mem ((c.tc : Thread nD τ).loc main_v34)
        = Cert.ReferenceIdeal.Read.val_main_v50 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v34 (Pipeline.mem_restRefs_of main_v34 (by decide) (by decide))).trans (value m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.RowValue

end
-- ==== Proof.lean ====
/-
  A contextual similarity loss: the kernel against its reference, over the extended reals.

  Both programs take two feature arrays `[4, 256, 64, 64]`, centre them by the second array's per-channel spatial mean,
  divide each pixel's channel vector by its norm plus epsilon, and flatten the pixels: query vectors `xn (b, ·, n)` and
  key vectors `yn (b, ·, m)`. For each query pixel they form the cosine distances `d m = 1 - ⟨xn n, yn m⟩` to all 4096
  keys, the weights `w m = exp ((1 - d m / (min d + 1e-5)) / 0.1)`, and a per-pixel value; the result is minus the
  logarithm of the per-batch mean of those values.

  The kernel computes the per-pixel value as `(max_m w m) / (Σ_m w m)`, tile by tile over a 4 × 16 grid with the batch's
  whole key matrix resident; the reference as `max_m (w m / Σ w)` on the whole `[4, 4096, 4096]` tensor. On the extended
  reals these agree for every input: each weight is an exponential, so the sum is `≥ 0` (possibly `0` or `+∞`), and
  dividing by a nonnegative extended real is monotone in the numerator, hence commutes with the maximum of a nonempty
  finite family. Everything else the two programs do is the same operations on the same values: a matrix product into a
  zero accumulator and the host's contraction are one sum; lane reductions and the host's reduces are one fold or sum
  over the keys; a transpose, casts and broadcasts only re-index. No finiteness of the inputs is used by the value
  claim; the precondition is never opened.

  The modules: `LibFoldMaxDiv` (the order fact), `RowSpec` (one row's value in both arrangements, and the law),
  `LibDot` / `LibColumnLayout` / `LibRowReduce` (a product, column forms and last-axis reductions read at coordinates),
  `KernelPayload` (the body's stored column at a row), `KernelArray` (blocks to the output array), `RefRow` (the
  reference's per-row maximum at a row), `KernelRun` (the staged arrays, the host tail, the run). The frames of the two
  kernel programs are the generated ones; the reference's frame is its generated run with the result dropped.
-/
import proofs.«125625_j76338748719505_1_alg».proof.Defs
import proofs.«125625_j76338748719505_1_alg».proof.Proof.Gen.Kernel
import proofs.«125625_j76338748719505_1_alg».proof.Proof.Gen.Kernel.Skeleton
import proofs.«125625_j76338748719505_1_alg».proof.Proof.Gen.Kernel.Launch
import proofs.«125625_j76338748719505_1_alg».proof.Proof.Gen.Kernel.Points
import proofs.«125625_j76338748719505_1_alg».proof.Proof.Gen.Kernel.Frame
import proofs.«125625_j76338748719505_1_alg».proof.Proof.Gen.KernelIdeal
import proofs.«125625_j76338748719505_1_alg».proof.Proof.Gen.KernelIdeal.Skeleton
import proofs.«125625_j76338748719505_1_alg».proof.Proof.Gen.KernelIdeal.Launch
import proofs.«125625_j76338748719505_1_alg».proof.Proof.Gen.KernelIdeal.Points
import proofs.«125625_j76338748719505_1_alg».proof.Proof.Gen.KernelIdeal.Frame
import proofs.«125625_j76338748719505_1_alg».proof.Proof.Gen.ReferenceIdeal
import proofs.«125625_j76338748719505_1_alg».proof.Proof.Gen.Pre_finite_inputs
import proofs.«125625_j76338748719505_1_alg».proof.Proof.Gen.ReferenceIdeal.Run
import proofs.«125625_j76338748719505_1_alg».proof.Proof.Gen.ReferenceIdeal.Read
import proofs.«125625_j76338748719505_1_alg».proof.Proof.KernelRun
import Idealize.ShloMosaic.Adequacy
import Idealize.ShloMosaic.Init

noncomputable section

namespace Cert.Proof

open Idealize.ShloMosaic Idealize.SL.Sem

/-- The word-level kernel program runs and leaves its arguments: the generated frame. -/
theorem frame_kernel : Cert.frame_Kernel := fun m ρ _ => Cert.Kernel.Gen.frame m ρ

/-- The idealized kernel program runs and leaves its arguments: the generated frame. -/
theorem frame_kernelIdeal : Cert.frame_KernelIdeal := fun m ρ _ => Cert.KernelIdeal.Gen.frame m ρ

/-- The idealized reference runs and leaves its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the extended reals. -/
theorem preserves : Cert.preserves_Kernel_KernelIdeal := trivial

/-- From memories agreeing on the arguments both idealized programs end with the reference's last stage of those
    arguments: the kernel's by its run read back, the reference's by its generated run. -/
theorem algebraic : Cert.algebraic_KernelIdeal_ReferenceIdeal := by
  intro m ρ m' ρ' _ hagree
  refine ⟨fun c => Cert.ReferenceIdeal.Read.val_main_v50 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
